-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩
abbrev S4096x128 : Shape := ⟨2, ![4096, 128]⟩

abbrev nBuf : Space → Nat
  | .hbm => 14
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S4096x4096, .bf16⟩
  | .hbm, ⟨13, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S4096x128, .bf16⟩
  | .local _ .vmem, ⟨7, _⟩ => ⟨S4096x128, .bf16⟩
  | .local _ .vmem, ⟨8, _⟩ => ⟨S128x4096, .f32⟩
  | .local _ .vmem, ⟨9, _⟩ => ⟨S128x4096, .f32⟩
  | .local _ .vmem, ⟨10, _⟩ => ⟨S4096x4096, .bf16⟩
  | .local _ .vmem, ⟨11, _⟩ => ⟨S1x4096, .f32⟩
  | .local _ .vmem, ⟨12, _⟩ => ⟨S128x4096, .f32⟩
  | .local _ .vmem, ⟨13, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  transposes_S128x4096_p1_0_S4096x128 : S128x4096.Transposes [1, 0] S4096x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x4096.size a
  hwx0_3 : ∀ i : grid0.Coords, EltTy.bits .bf16 = 32 ∨ (Rect.block (s := S4096x4096) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S16384x4096.size a
  hwx1_0 : ∀ i : grid1.Coords, EltTy.bits .f32 = 32 ∨ (Rect.block (s := S16384x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S16384x4096.size a
  hwx1_3 : ∀ i : grid1.Coords, EltTy.bits .f32 = 32 ∨ (Rect.block (s := S16384x4096) S128x4096.size (cc1_transform_3 i) (hinb1_3 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.SampledLinear.lean ====
/-
  The layer, as one function of its seven argument arrays over the extended reals.

  A parameter is sampled by the softplus reparameterisation: its mean plus log(1 + e^rho) times a noise term. The
  weight matrix W (one row per output feature o, one column per input feature k) and the bias vector b are sampled
  entry by entry in this way, and the layer sends a batch x to

      out(n, o) = (sum over k < 4096 of x(n, k) * W(o, k)) + b(o).

  The product is written here through the TRANSPOSED weight Wt(k, o) = W(o, k) and the bias as a one-row matrix, because
  that is the form in which both programs meet: one of them builds Wt and the row explicitly, the other contracts x
  with W along W's second axis and broadcasts b. No algebra on the extended reals is needed to join them: entry by
  entry the two are the same sum of the same products plus the same bias term.
-/
import Idealize.ShloMosaic.PureOps.Ideal
import Idealize.ShloMosaic.Lib.ValueIdx

noncomputable section

namespace Cert.SampledLinear

open Idealize.ShloMosaic Idealize.ShloMosaic.ValueIdx

/-- A batch of 16384 rows of 4096 features. -/
abbrev Batch : Shape := ⟨2, ![16384, 4096]⟩
/-- A 4096 x 4096 matrix. -/
abbrev Square : Shape := ⟨2, ![4096, 4096]⟩
/-- A vector of 4096 entries. -/
abbrev Vector : Shape := ⟨1, ![4096]⟩
/-- The same vector as a matrix of one row. -/
abbrev Row : Shape := ⟨2, ![1, 4096]⟩

/-- One sampled parameter: mean + log(1 + e^rho) * noise. -/
def sample (mu rho eps : EReal) : EReal := mu + Ideal.log1p (Ideal.exp rho) * eps

/-- The sampled weight of output feature `o` and input feature `k`. -/
def weight (wmu wrho weps : Square.Idx → EReal) (o k : Fin 4096) : EReal :=
  sample (wmu (ix2 o k)) (wrho (ix2 o k)) (weps (ix2 o k))

/-- The sampled bias of output feature `o`. -/
def bias (bmu brho beps : Vector.Idx → EReal) (o : Fin 4096) : EReal :=
  sample (bmu (ix1 o)) (brho (ix1 o)) (beps (ix1 o))

/-- The sampled weight matrix transposed: entry (k, o) is the weight of output `o` and input `k`. -/
def weightT (wmu wrho weps : Square.Idx → EReal) : Square.Idx → EReal :=
  fun j => weight wmu wrho weps ⟨(j 1).val, idx2_lt1 j⟩ ⟨(j 0).val, idx2_lt0 j⟩

/-- The sampled bias as a one-row matrix. -/
def biasRow (bmu brho beps : Vector.Idx → EReal) : Row.Idx → EReal :=
  fun j => bias bmu brho beps ⟨(j 1).val, idx2_lt1 j⟩

/-- A batch times a matrix given by its transpose `wt`, plus a row: entry (n, o) is
    (sum over k of x(n, k) * wt(k, o)) + b(0, o). -/
def affine (x : Batch.Idx → EReal) (wt : Square.Idx → EReal) (b : Row.Idx → EReal) : Batch.Idx → EReal :=
  fun i => (∑ k : Fin 4096, x (ix2 (⟨(i 0).val, idx2_lt0 i⟩ : Fin 16384) k) * wt (ix2 k (⟨(i 1).val, idx2_lt1 i⟩ : Fin 4096)))
    + b (ix2 (0 : Fin 1) (⟨(i 1).val, idx2_lt1 i⟩ : Fin 4096))

/-- The layer: the batch times the sampled weight, plus the sampled bias. -/
def layer (x : Batch.Idx → EReal) (wmu wrho : Square.Idx → EReal) (bmu brho : Vector.Idx → EReal)
    (weps : Square.Idx → EReal) (beps : Vector.Idx → EReal) : Batch.Idx → EReal :=
  affine x (weightT wmu wrho weps) (biasRow bmu brho beps)

/-- The transposed weight at explicit coordinates. -/
theorem weightT_ix2 (wmu wrho weps : Square.Idx → EReal) (k o : Fin 4096) :
    weightT wmu wrho weps (ix2 k o) = weight wmu wrho weps o k := rfl

/-- The bias row at explicit coordinates. -/
theorem biasRow_ix2 (bmu brho beps : Vector.Idx → EReal) (u : Fin 1) (o : Fin 4096) :
    biasRow bmu brho beps (ix2 u o) = bias bmu brho beps o := rfl

/-- The product-plus-row at explicit coordinates. -/
theorem affine_ix2 (x : Batch.Idx → EReal) (wt : Square.Idx → EReal) (b : Row.Idx → EReal) (n : Fin 16384) (o : Fin 4096) :
    affine x wt b (ix2 n o) = (∑ k : Fin 4096, x (ix2 n k) * wt (ix2 k o)) + b (ix2 (0 : Fin 1) o) := rfl

end Cert.SampledLinear

end
-- ==== Proof.KernelRun.lean ====
/-
  The idealized kernel's run, with its result named.

  The program is a stretch of host operations (the sampled bias, recast as a one-row matrix), then the region that
  builds the transposed sampled weight, then the region that forms the product and adds the row. Every weakly fair
  execution of it terminates without a fault, and in the final state every buffer that outlives the regions holds
  the contents reached by following those three segments from the launch memory; in particular the result buffer
  does, and the seven argument arrays are as launched.
-/
import proofs.«167842_j89541478187695_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the contents the last segment
    leaves it with, and the argument arrays end as launched. -/
theorem result_and_arguments : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Run

end
-- ==== Proof.WeightRegion.lean ====
/-
  The first region: the sampled weight, transposed.

  The region walks the 32 blocks of 128 output features. At block t it reads rows 128 t .. 128 t + 127 of the mean,
  rho and noise matrices (each row holds the 4096 input features of one output feature), samples every entry, and
  writes the 128 x 4096 tile TRANSPOSED into columns 128 t .. 128 t + 127 of a 4096 x 4096 array. The 32 column
  strips tile that array, so when the region is left the array holds, at (k, o), the sampled weight of output feature
  o and input feature k — whatever the three matrices held when the region was entered.
-/
import proofs.«167842_j89541478187695_2_alg».proof.Proof.Gen.KernelIdeal.Frame
import proofs.«167842_j89541478187695_2_alg».proof.Proof.SampledLinear
import Idealize.ShloMosaic.Lib.Pipeline.Value
import Idealize.ShloMosaic.Lib.ValueIdx
import Idealize.ShloMosaic.Lib.ValueLayout

noncomputable section

namespace Cert.KernelIdeal.WeightRegion

open Idealize.ShloMosaic Idealize.ShloMosaic.TcCoe Idealize.SL.Sem Idealize.ShloMosaic.ValueIdx
open Idealize.ShloMosaic.Pipeline (Dat)
open Cert.KernelIdeal Cert.KernelIdeal.Gen Cert.SampledLinear

variable (V : (c : Dev nD) → (b : Ref sig .tc) → Buf (Elt Ideal) ((c : Thread nD τ).loc b))

theorem zero_offsets : (![0, 0] : Fin 2 → Nat) = fun _ => 0 := funext fun a => by fin_cases a <;> rfl

/-- What one grid point stores, at row k and column o of its 4096 x 128 tile: the sample of entry (o, k) of the three
    128 x 4096 blocks it read (the tile is the sampled block transposed; rounding to the narrower format is the
    identity on exact values). -/
theorem tile_apply (mu rho eps : FVec Ideal S128x4096 .f32) (k : Fin 4096) (o : Fin 128) :
    (k0_pay1 (F := Ideal) rho mu eps (ix2 k o) : EReal) = sample (mu (ix2 o k)) (rho (ix2 o k)) (eps (ix2 o k)) := by
  unfold k0_pay1
  show transpose S4096x128 [1, 0] (addf mu (mulf (log1p (exp rho)) eps)) transposes_S128x4096_p1_0_S4096x128 (ix2 k o) = _
  rw [transpose_ix2_apply]
  rfl

/-- Where each window's block sits at grid point t: the three inputs at row block t, the output at column block t. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The mean window's block at point t holds, at (o, k), entry (128 t + o, k) of the mean matrix as the region found it. -/
theorem mean_block_apply (c : Dev nD) (t : Fin cfg0.N) (o : Fin 128) (k : Fin 4096) (i : S4096x4096.Idx)
    (h0 : (i 0).val = 128 * t.val + o.val) (h1 : (i 1).val = k.val) :
    (iblk0 V c 0 t : FVec Ideal S128x4096 .f32) (ix2 o k) = (V c main_arg1 : S4096x4096.Idx → EReal) i := by
  obtain ⟨e0, e1, -⟩ := block_positions t
  unfold iblk0
  rw [View.read_apply]
  show V c main_arg1 _ = V c main_arg1 _
  refine congrArg (V c main_arg1) ?_
  funext a
  apply Fin.ext
  match a with
  | ⟨0, _⟩ => show win0_0.index t (0 : Fin 2) * 128 + 1 * o.val = (i 0).val; rw [e0, h0]; omega
  | ⟨1, _⟩ => show win0_0.index t (1 : Fin 2) * 4096 + 1 * k.val = (i 1).val; rw [e1, h1]; omega

/-- The same for the rho matrix. -/
theorem rho_block_apply (c : Dev nD) (t : Fin cfg0.N) (o : Fin 128) (k : Fin 4096) (i : S4096x4096.Idx)
    (h0 : (i 0).val = 128 * t.val + o.val) (h1 : (i 1).val = k.val) :
    (iblk0 V c 1 t : FVec Ideal S128x4096 .f32) (ix2 o k) = (V c main_arg2 : S4096x4096.Idx → EReal) i := by
  obtain ⟨-, -, e0, e1, -⟩ := block_positions t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * o.val = (i 0).val; rw [e0, h0]; omega
  | ⟨1, _⟩ => show win0_1.index t (1 : Fin 2) * 4096 + 1 * k.val = (i 1).val; rw [e1, h1]; omega

/-- The same for the noise matrix. -/
theorem noise_block_apply (c : Dev nD) (t : Fin cfg0.N) (o : Fin 128) (k : Fin 4096) (i : S4096x4096.Idx)
    (h0 : (i 0).val = 128 * t.val + o.val) (h1 : (i 1).val = k.val) :
    (iblk0 V c 2 t : FVec Ideal S128x4096 .f32) (ix2 o k) = (V c main_arg5 : S4096x4096.Idx → EReal) i := by
  obtain ⟨-, -, -, -, e0, e1, -⟩ := block_positions t
  unfold iblk0
  rw [View.read_apply]
  show V c main_arg5 _ = V c main_arg5 _
  refine congrArg (V c main_arg5) ?_
  funext a
  apply Fin.ext
  match a with
  | ⟨0, _⟩ => show win0_2.index t (0 : Fin 2) * 128 + 1 * o.val = (i 0).val; rw [e0, h0]; omega
  | ⟨1, _⟩ => show win0_2.index t (1 : Fin 2) * 4096 + 1 * k.val = (i 1).val; rw [e1, h1]; omega

/-- What point t writes back is block t (columns 128 t .. 128 t + 127) of the transposed sampled weight. -/
theorem flushed_eq (c : Dev nD) (t : Fin cfg0.N) :
    (dat0 V c).flushed 3 t = ((cfg0.win 3).blk t).view.read (Elt Ideal)
      (weightT (V c main_arg1) (V c main_arg2) (V c main_arg5)) := by
  show (cfg0.win 3).cut (grid0.coords t) ((dat0 V c).after 3 t) = _
  rw [after0_3]
  unfold out0_3
  rw [View.canon_unit_zero zero_offsets]
  simp only [View.ld_unit_zero (S := S128x4096) zero_offsets]
  funext j
  show (k0_pay1 (F := Ideal) (iblk0 V c 1 t) (iblk0 V c 0 t) (iblk0 V c 2 t) j : EReal)
    = weightT (V c main_arg1) (V c main_arg2) (V c main_arg5) (((cfg0.win 3).blk t).view.emb j)
  obtain ⟨k, o, rfl⟩ : ∃ (k : Fin 4096) (o : Fin 128), j = ix2 k o := ⟨j 0, j 1, eq_ix2 j⟩
  refine (tile_apply (iblk0 V c 0 t) (iblk0 V c 1 t) (iblk0 V c 2 t) k o).trans ?_
  have hN : cfg0.N = 32 := N_0
  have ht : t.val < 32 := hN ▸ t.isLt
  obtain ⟨-, -, -, -, -, -, e0, e1⟩ := block_positions t
  have ho : 128 * t.val + o.val < 4096 := by have := o.isLt; omega
  have hi : ((cfg0.win 3).blk t).view.emb (ix2 k o)
      = (ix2 k (⟨128 * t.val + o.val, ho⟩ : Fin 4096) : S4096x4096.Idx) := by
    funext a
    apply Fin.ext
    match a with
    | ⟨0, _⟩ => show win0_3.index t (0 : Fin 2) * 4096 + 1 * k.val = k.val; rw [e0]; omega
    | ⟨1, _⟩ => show win0_3.index t (1 : Fin 2) * 128 + 1 * o.val = 128 * t.val + o.val; rw [e1]; omega
  rw [hi, weightT_ix2]
  unfold weight
  rw [mean_block_apply V c t o k (ix2 (⟨128 * t.val + o.val, ho⟩ : Fin 4096) k) rfl rfl,
    rho_block_apply V c t o k (ix2 (⟨128 * t.val + o.val, ho⟩ : Fin 4096) k) rfl rfl,
    noise_block_apply V c t o k (ix2 (⟨128 * t.val + o.val, ho⟩ : Fin 4096) k) rfl rfl]

/-- Every entry (k, o) of the array lies in the column strip of point o / 128, which is written back. -/
theorem covered (i : S4096x4096.Idx) :
    ∃ t : Fin cfg0.N, (cfg0.win 3).flush t = true ∧ i ∈ ((cfg0.win 3).blk t).view.set := by
  have hN : cfg0.N = 32 := N_0
  have h0 : (i 0).val < 4096 := (i 0).isLt
  have h1 : (i 1).val < 4096 := (i 1).isLt
  have hq : (i 1).val / 128 < cfg0.N := by rw [hN]; omega
  obtain ⟨-, -, -, -, -, -, e0, e1⟩ := block_positions ⟨(i 1).val / 128, hq⟩
  have e1' : win0_3.index ⟨(i 1).val / 128, hq⟩ (1 : Fin 2) = (i 1).val / 128 := e1
  refine ⟨⟨(i 1).val / 128, hq⟩, flush0_3 _, ?_⟩
  show i ∈ ((View.whole main_v5).slice (win0_3.rect ⟨(i 1).val / 128, hq⟩)).set
  rw [View.set_slice_whole, Rect.mem_set_unit]
  intro a
  match a with
  | ⟨0, _⟩ =>
    show win0_3.index ⟨(i 1).val / 128, hq⟩ (0 : Fin 2) * 4096 ≤ (i 0).val
      ∧ (i 0).val < win0_3.index ⟨(i 1).val / 128, hq⟩ (0 : Fin 2) * 4096 + 4096
    rw [e0]; omega
  | ⟨1, _⟩ =>
    show win0_3.index ⟨(i 1).val / 128, hq⟩ (1 : Fin 2) * 128 ≤ (i 1).val
      ∧ (i 1).val < win0_3.index ⟨(i 1).val / 128, hq⟩ (1 : Fin 2) * 128 + 128
    rw [e1']; omega

/-- When the region is left its output array holds the transposed sampled weight of the three matrices it was entered
    with. -/
theorem final (c : Dev nD) :
    (dat0 V c).arrAt 3 cfg0.N = weightT (V c main_arg1) (V c main_arg2) (V c main_arg5) :=
  (dat0 V c).arrAt_eq_of_cover 3 _ (fun t _ => flushed_eq V c t) covered

end Cert.KernelIdeal.WeightRegion

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.ProductRegion.lean ====
/-
  The second region: a batch times a matrix given by its transpose, plus a row.

  The region walks the 128 blocks of 128 batch rows. At block t it reads rows 128 t .. 128 t + 127 of the batch, the
  WHOLE 4096 x 4096 matrix and the whole one-row matrix (these two stay where they are for the entire walk), forms
  the 128 x 4096 product of the row block with the matrix — a sum over the 4096 shared coordinates, started from
  zero —, adds the row to every row of the product, and writes the tile to rows 128 t .. 128 t + 127 of the result.
  The 128 row strips tile the result, so when the region is left the result holds, at (n, o),
  (sum over k of x(n, k) * wt(k, o)) + b(0, o) — whatever the three arrays held when the region was entered.
-/
import proofs.«167842_j89541478187695_2_alg».proof.Proof.Gen.KernelIdeal.Frame
import proofs.«167842_j89541478187695_2_alg».proof.Proof.SampledLinear
import proofs.«167842_j89541478187695_2_alg».proof.Proof.LibMatmulSum
import Idealize.ShloMosaic.Lib.Pipeline.Value
import Idealize.ShloMosaic.Lib.ValueIdx
import Idealize.ShloMosaic.Lib.ValueLayout

noncomputable section

namespace Cert.KernelIdeal.ProductRegion

open Idealize.ShloMosaic Idealize.ShloMosaic.TcCoe Idealize.SL.Sem Idealize.ShloMosaic.ValueIdx
open Idealize.ShloMosaic.Pipeline (Dat)
open Cert.KernelIdeal Cert.KernelIdeal.Gen Cert.SampledLinear

variable (V : (c : Dev nD) → (b : Ref sig .tc) → Buf (Elt Ideal) ((c : Thread nD τ).loc b))

theorem zero_offsets : (![0, 0] : Fin 2 → Nat) = fun _ => 0 := funext fun a => by fin_cases a <;> rfl

/-- The body's product contracts the row block's second axis with the matrix's first, over 4096 coordinates, and its
    result's axes are the row block's first and the matrix's second. -/
theorem product_is_plain : Cert.LibMatmulSum.Plain (n := 128) (K := 4096) (w := 4096) dot_S128x4096_S4096x4096_S128x4096_1_0_0_1_n_n where
  rank := rfl
  size := rfl
  l0 := fun i q => by
    unfold DotDims.lhsIdx
    rw [dif_neg (show ¬(0 : Fin S128x4096.rank) ∈ dot_S128x4096_S4096x4096_S128x4096_1_0_0_1_n_n.lhsBatch by decide),
      dif_pos (show (0 : Fin S128x4096.rank) ∈ dot_S128x4096_S4096x4096_S128x4096_1_0_0_1_n_n.lhsNonContracting by decide)]
    rfl
  l1 := fun i q => dot_S128x4096_S4096x4096_S128x4096_1_0_0_1_n_n.lhsIdx_val_of_single rfl i q
  r0 := fun i q => dot_S128x4096_S4096x4096_S128x4096_1_0_0_1_n_n.rhsIdx_val_of_single rfl i q
  r1 := fun i q => by
    unfold DotDims.rhsIdx
    rw [dif_neg (show ¬(1 : Fin S4096x4096.rank) ∈ dot_S128x4096_S4096x4096_S128x4096_1_0_0_1_n_n.rhsBatch by decide),
      dif_pos (show (1 : Fin S4096x4096.rank) ∈ dot_S128x4096_S4096x4096_S128x4096_1_0_0_1_n_n.rhsNonContracting by decide)]
    rfl

/-- What one grid point stores, at row p and column q of its 128 x 4096 tile: the sum over k of the row block's
    (p, k) times the matrix's (k, q), plus the row's entry q (rounding to the narrower format is the identity on exact
    values, and the accumulator starts at zero). -/
theorem tile_apply (x : FVec Ideal S128x4096 .f32) (wt : FVec Ideal S4096x4096 .bf16) (b : FVec Ideal S1x4096 .f32)
    (p : Fin 128) (q : Fin 4096) :
    (k1_pay1 (F := Ideal) x wt b (ix2 p q) : EReal) = (∑ k : Fin 4096, x (ix2 p k) * wt (ix2 k q)) + b (ix2 (0 : Fin 1) q) := by
  unfold k1_pay1
  show (matmul dot_S128x4096_S4096x4096_S128x4096_1_0_0_1_n_n none (truncf .bf16 x bitsLt_bf16_f32)
      (shapeCast S4096x4096 wt shapeCasts_S4096x4096_S4096x4096) (constant (F := Ideal) S128x4096 .f32 0x00000000#32) (ix2 p q) : EReal)
    + broadcastTo S128x4096 (shapeCast S1x4096 b shapeCasts_S1x4096_S1x4096) broadcasts_S1x4096_S128x4096 (ix2 p q) = _
  rw [shapeCast_self, shapeCast_self, broadcastTo_1b_ab_apply]
  refine congrArg (· + b (ix2 (0 : Fin 1) q)) ?_
  exact Cert.LibMatmulSum.matmul_zero_at product_is_plain none (truncf .bf16 x bitsLt_bf16_f32) wt p q

/-- Where each window's block sits at grid point t: the batch and the result at row block t, the matrix and the row
    whole. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The batch window's block at point t holds, at (p, k), entry (128 t + p, k) of the batch as the region found it. -/
theorem batch_block_apply (c : Dev nD) (t : Fin cfg1.N) (p : Fin 128) (k : Fin 4096) (i : S16384x4096.Idx)
    (h0 : (i 0).val = 128 * t.val + p.val) (h1 : (i 1).val = k.val) :
    (iblk1 V c 0 t : FVec Ideal S128x4096 .f32) (ix2 p k) = (V c main_arg0 : S16384x4096.Idx → EReal) i := by
  obtain ⟨e0, e1, -⟩ := block_positions t
  unfold iblk1
  rw [View.read_apply]
  show V c main_arg0 _ = V c main_arg0 _
  refine congrArg (V c main_arg0) ?_
  funext a
  apply Fin.ext
  match a with
  | ⟨0, _⟩ => show win1_0.index t (0 : Fin 2) * 128 + 1 * p.val = (i 0).val; rw [e0, h0]; omega
  | ⟨1, _⟩ => show win1_0.index t (1 : Fin 2) * 4096 + 1 * k.val = (i 1).val; rw [e1, h1]; omega

/-- The matrix window's one block is the whole matrix as the region found it. -/
theorem matrix_block_apply (c : Dev nD) (t : Fin cfg1.N) (k q : Fin 4096) :
    (iblk1 V c 1 t : FVec Ideal S4096x4096 .bf16) (ix2 k q) = (V c main_v5 : S4096x4096.Idx → EReal) (ix2 k q) := by
  obtain ⟨-, -, e0, e1, -⟩ := block_positions t
  unfold iblk1
  rw [View.read_apply]
  show V c main_v5 _ = V c main_v5 _
  refine congrArg (V c main_v5) ?_
  funext a
  apply Fin.ext
  match a with
  | ⟨0, _⟩ => show win1_1.index t (0 : Fin 2) * 4096 + 1 * k.val = k.val; rw [e0]; omega
  | ⟨1, _⟩ => show win1_1.index t (1 : Fin 2) * 4096 + 1 * q.val = q.val; rw [e1]; omega

/-- The row window's one block is the whole one-row matrix as the region found it. -/
theorem row_block_apply (c : Dev nD) (t : Fin cfg1.N) (q : Fin 4096) :
    (iblk1 V c 2 t : FVec Ideal S1x4096 .f32) (ix2 (0 : Fin 1) q) = (V c main_v4 : S1x4096.Idx → EReal) (ix2 (0 : Fin 1) q) := by
  obtain ⟨-, -, -, -, e0, e1, -⟩ := block_positions t
  unfold iblk1
  rw [View.read_apply]
  show V c main_v4 _ = V c main_v4 _
  refine congrArg (V c main_v4) ?_
  funext a
  apply Fin.ext
  match a with
  | ⟨0, _⟩ => show win1_2.index t (0 : Fin 2) * 1 + 1 * 0 = 0; rw [e0]
  | ⟨1, _⟩ => show win1_2.index t (1 : Fin 2) * 4096 + 1 * q.val = q.val; rw [e1]; omega

/-- What point t writes back is block t (rows 128 t .. 128 t + 127) of the product-plus-row of the three arrays. -/
theorem flushed_eq (c : Dev nD) (t : Fin cfg1.N) :
    (dat1 V c).flushed 3 t = ((cfg1.win 3).blk t).view.read (Elt Ideal)
      (affine (V c main_arg0) (V c main_v5) (V c main_v4)) := by
  show (cfg1.win 3).cut (grid1.coords t) ((dat1 V c).after 3 t) = _
  rw [after1_3]
  unfold out1_3
  rw [View.canon_unit_zero zero_offsets]
  simp only [View.ld_unit_zero (S := S128x4096) zero_offsets, View.ld_unit_zero (S := S4096x4096) zero_offsets,
    View.ld_unit_zero (S := S1x4096) zero_offsets]
  funext j
  show (k1_pay1 (F := Ideal) (iblk1 V c 0 t) (iblk1 V c 1 t) (iblk1 V c 2 t) j : EReal)
    = affine (V c main_arg0) (V c main_v5) (V c main_v4) (((cfg1.win 3).blk t).view.emb j)
  obtain ⟨p, q, rfl⟩ : ∃ (p : Fin 128) (q : Fin 4096), j = ix2 p q := ⟨j 0, j 1, eq_ix2 j⟩
  refine (tile_apply (iblk1 V c 0 t) (iblk1 V c 1 t) (iblk1 V c 2 t) p q).trans ?_
  have hN : cfg1.N = 128 := N_1
  have ht : t.val < 128 := hN ▸ t.isLt
  obtain ⟨-, -, -, -, -, -, e0, e1⟩ := block_positions t
  have hp : 128 * t.val + p.val < 16384 := by have := p.isLt; omega
  have hi : ((cfg1.win 3).blk t).view.emb (ix2 p q)
      = (ix2 (⟨128 * t.val + p.val, hp⟩ : Fin 16384) q : S16384x4096.Idx) := by
    funext a
    apply Fin.ext
    match a with
    | ⟨0, _⟩ => show win1_3.index t (0 : Fin 2) * 128 + 1 * p.val = 128 * t.val + p.val; rw [e0]; omega
    | ⟨1, _⟩ => show win1_3.index t (1 : Fin 2) * 4096 + 1 * q.val = q.val; rw [e1]; omega
  rw [hi, affine_ix2, row_block_apply V c t q]
  refine congrArg (· + (V c main_v4 : S1x4096.Idx → EReal) (ix2 (0 : Fin 1) q)) (Finset.sum_congr rfl fun k _ => ?_)
  rw [batch_block_apply V c t p k (ix2 (⟨128 * t.val + p.val, hp⟩ : Fin 16384) k) rfl rfl, matrix_block_apply V c t k q]

/-- Every entry (n, o) of the result lies in the row strip of point n / 128, which is written back. -/
theorem covered (i : S16384x4096.Idx) :
    ∃ t : Fin cfg1.N, (cfg1.win 3).flush t = true ∧ i ∈ ((cfg1.win 3).blk t).view.set := by
  have hN : cfg1.N = 128 := N_1
  have h0 : (i 0).val < 16384 := (i 0).isLt
  have h1 : (i 1).val < 4096 := (i 1).isLt
  have hq : (i 0).val / 128 < cfg1.N := by rw [hN]; omega
  obtain ⟨-, -, -, -, -, -, e0, e1⟩ := block_positions ⟨(i 0).val / 128, hq⟩
  have e0' : win1_3.index ⟨(i 0).val / 128, hq⟩ (0 : Fin 2) = (i 0).val / 128 := e0
  refine ⟨⟨(i 0).val / 128, hq⟩, flush1_3 _, ?_⟩
  show i ∈ ((View.whole main_v6).slice (win1_3.rect ⟨(i 0).val / 128, hq⟩)).set
  rw [View.set_slice_whole, Rect.mem_set_unit]
  intro a
  match a with
  | ⟨0, _⟩ =>
    show win1_3.index ⟨(i 0).val / 128, hq⟩ (0 : Fin 2) * 128 ≤ (i 0).val
      ∧ (i 0).val < win1_3.index ⟨(i 0).val / 128, hq⟩ (0 : Fin 2) * 128 + 128
    rw [e0']; omega
  | ⟨1, _⟩ =>
    show win1_3.index ⟨(i 0).val / 128, hq⟩ (1 : Fin 2) * 4096 ≤ (i 1).val
      ∧ (i 1).val < win1_3.index ⟨(i 0).val / 128, hq⟩ (1 : Fin 2) * 4096 + 4096
    rw [e1]; omega

/-- When the region is left its result array holds the product-plus-row of the three arrays it was entered with. -/
theorem final (c : Dev nD) :
    (dat1 V c).arrAt 3 cfg1.N = affine (V c main_arg0) (V c main_v5) (V c main_v4) :=
  (dat1 V c).arrAt_eq_of_cover 3 _ (fun t _ => flushed_eq V c t) covered

end Cert.KernelIdeal.ProductRegion

end
-- ==== Proof.Boundaries.lean ====
/-
  The contents the two regions are entered with, traced back to the launch memory.

  Before the first region the host samples the bias vector and recasts it as a one-row matrix; it touches none of the
  seven argument arrays. So the first region is entered with the weight's mean, rho and noise matrices as launched,
  and leaves the transposed sampled weight. The second region is entered with the batch as launched (nothing wrote
  it), that transposed weight, and the sampled bias as a row, and leaves the layer's value in the result buffer.
-/
import proofs.«167842_j89541478187695_2_alg».proof.Proof.Gen.KernelIdeal.Frame
import proofs.«167842_j89541478187695_2_alg».proof.Proof.SampledLinear
import proofs.«167842_j89541478187695_2_alg».proof.Proof.WeightRegion
import proofs.«167842_j89541478187695_2_alg».proof.Proof.ProductRegion
import Idealize.ShloMosaic.Lib.StableHlo.Run
import Idealize.ShloMosaic.Lib.ValueIdx
import Idealize.ShloMosaic.Lib.ValueLayout

noncomputable section

namespace Cert.KernelIdeal.Boundaries

open Idealize.ShloMosaic Idealize.ShloMosaic.TcCoe Idealize.SL.Sem Idealize.ShloMosaic.ValueIdx
open Idealize.ShloMosaic.StableHlo
open Cert.KernelIdeal Cert.KernelIdeal.Gen Cert.SampledLinear

variable (m : (ℓ : Loc nD τ sig) → Buf (Elt Ideal) ℓ) (ρ : Dev nD → PrngReg)

/-- The host stretch writes none of the argument arrays the regions read. -/
theorem mean_at_first_entry (c : Dev nD) : V1 m ρ c main_arg1 = m ((c : Thread nD τ).loc main_arg1) := by
  show StableHlo.after hostOps0 (W0 m ρ c) (Proc.devRef .tc main_arg1) = _
  after_results
theorem rho_at_first_entry (c : Dev nD) : V1 m ρ c main_arg2 = m ((c : Thread nD τ).loc main_arg2) := by
  show StableHlo.after hostOps0 (W0 m ρ c) (Proc.devRef .tc main_arg2) = _
  after_results
theorem noise_at_first_entry (c : Dev nD) : V1 m ρ c main_arg5 = m ((c : Thread nD τ).loc main_arg5) := by
  show StableHlo.after hostOps0 (W0 m ρ c) (Proc.devRef .tc main_arg5) = _
  after_results
theorem batch_at_first_entry (c : Dev nD) : V1 m ρ c main_arg0 = m ((c : Thread nD τ).loc main_arg0) := by
  show StableHlo.after hostOps0 (W0 m ρ c) (Proc.devRef .tc main_arg0) = _
  after_results

/-- The one-row matrix the host stretch leaves is the sampled bias as a row: entry (0, o) of the recast vector is the
    vector's entry o, and the vector is sampled entry by entry. -/
theorem row_at_first_entry (c : Dev nD) :
    (V1 m ρ c main_v4 : S1x4096.Idx → EReal)
      = biasRow (m ((c : Thread nD τ).loc main_arg3)) (m ((c : Thread nD τ).loc main_arg4)) (m ((c : Thread nD τ).loc main_arg6)) := by
  show StableHlo.after hostOps0 (W0 m ρ c) (Proc.devRef .tc main_v4) = _
  after_results
  funext j
  obtain ⟨u, q, rfl⟩ : ∃ (u : Fin 1) (q : Fin 4096), j = ix2 u q := ⟨j 0, j 1, eq_ix2 j⟩
  show (shapeCast S1x4096 (addf (F := Ideal) (m ((c : Thread nD τ).loc main_arg3))
      (mulf (Host.log1p (Host.exp (m ((c : Thread nD τ).loc main_arg4)))) (m ((c : Thread nD τ).loc main_arg6))))
      shapeCasts_S4096_S1x4096 (ix2 u q) : EReal) = _
  rw [shapeCast_a_1a_apply]
  rfl

/-- The first region does not write the batch or the row, so the second region finds them as the first did. -/
theorem batch_at_second_entry (c : Dev nD) : V2 m ρ c main_arg0 = m ((c : Thread nD τ).loc main_arg0) :=
  (W2_of_ne m ρ c main_arg0 (by decide)).trans (batch_at_first_entry m ρ c)

theorem row_at_second_entry (c : Dev nD) :
    (V2 m ρ c main_v4 : S1x4096.Idx → EReal)
      = biasRow (m ((c : Thread nD τ).loc main_arg3)) (m ((c : Thread nD τ).loc main_arg4)) (m ((c : Thread nD τ).loc main_arg6)) :=
  (W2_of_ne m ρ c main_v4 (by decide)).trans (row_at_first_entry m ρ c)

/-- The second region finds, where the first region's output lives, the transposed sampled weight of the launch's
    mean, rho and noise matrices. -/
theorem matrix_at_second_entry (c : Dev nD) :
    (V2 m ρ c main_v5 : S4096x4096.Idx → EReal)
      = weightT (m ((c : Thread nD τ).loc main_arg1)) (m ((c : Thread nD τ).loc main_arg2)) (m ((c : Thread nD τ).loc main_arg5)) := by
  refine (W2_arr m ρ c 3).trans ?_
  rw [Cert.KernelIdeal.WeightRegion.final (V1 m ρ) c, mean_at_first_entry, rho_at_first_entry, noise_at_first_entry]

/-- What the last segment leaves in the result buffer is the layer's value at the launch's seven arrays. -/
theorem result_at_exit (c : Dev nD) :
    (W3 m ρ c (Proc.devRef .tc main_v6) : S16384x4096.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W3_arr m ρ c 3).trans ?_
  rw [Cert.KernelIdeal.ProductRegion.final (V2 m ρ) c, batch_at_second_entry, matrix_at_second_entry, row_at_second_entry]
  rfl

end Cert.KernelIdeal.Boundaries

end
-- ==== Proof.ReferenceValue.lean ====
/-
  The reference computes the layer.

  The reference samples the weight matrix entry by entry, contracts the batch with it along the weight's second axis
  (entry (n, o) of the product is the sum over k of x(n, k) * W(o, k)), samples the bias vector, spreads it over the
  batch rows, and adds. Read at an entry (n, o) that is the layer's value there: the sum is the sum over k of
  x(n, k) * Wt(k, o) with Wt the transpose, and the spread bias is the bias row's entry o.
-/
import proofs.«167842_j89541478187695_2_alg».proof.Proof.Gen.ReferenceIdeal.Read
import proofs.«167842_j89541478187695_2_alg».proof.Proof.SampledLinear
import Idealize.ShloMosaic.Lib.ValueIdx

noncomputable section

namespace Cert.ReferenceIdeal.LayerValue

open Idealize.ShloMosaic Idealize.ShloMosaic.TcCoe Idealize.SL.Sem Idealize.ShloMosaic.ValueIdx
open Cert.ReferenceIdeal Cert.ReferenceIdeal.Read Cert.SampledLinear

/-- The reference's last stage, as a function of the seven argument arrays, is the layer. -/
theorem stage_eq_layer (x : (⟨S16384x4096, .f32⟩ : BufTy).Contents (Elt Ideal))
    (wmu wrho : (⟨S4096x4096, .f32⟩ : BufTy).Contents (Elt Ideal)) (bmu brho : (⟨S4096, .f32⟩ : BufTy).Contents (Elt Ideal))
    (weps : (⟨S4096x4096, .f32⟩ : BufTy).Contents (Elt Ideal)) (beps : (⟨S4096, .f32⟩ : BufTy).Contents (Elt Ideal)) :
    val_main_v11 (F := Ideal) x wmu wrho bmu brho weps beps = layer x wmu wrho bmu brho weps beps := by
  funext i
  obtain ⟨n, o, rfl⟩ : ∃ (n : Fin 16384) (o : Fin 4096), i = ix2 n o := ⟨i 0, i 1, eq_ix2 i⟩
  have el : ∀ k : Fin 4096, lidx_main_v8 (ix2 n o) k = ix2 n k := fun k => funext fun a => Fin.ext (by
    match a with
    | ⟨0, _⟩ => rfl
    | ⟨1, _⟩ => rfl)
  have er : ∀ k : Fin 4096, ridx_main_v8 (ix2 n o) k = ix2 o k := fun k => funext fun a => Fin.ext (by
    match a with
    | ⟨0, _⟩ => rfl
    | ⟨1, _⟩ => rfl)
  have eb : idx_main_v9 (idx_main_v10 (ix2 n o)) = ix1 o := funext fun a => Fin.ext (by
    match a with
    | ⟨0, _⟩ => rfl)
  rw [val_main_v11_apply, val_main_v8_apply, val_main_v10_apply, val_main_v9_apply, eb]
  simp only [el, er]
  rfl

end Cert.ReferenceIdeal.LayerValue

end
-- ==== Proof.lean ====
/-
  A dense layer with sampled parameters, computed two ways, gives the same values on the extended reals.

  Both programs take a batch x (16384 x 4096), the mean, rho and noise of a 4096 x 4096 weight matrix and of a bias
  vector, sample each parameter as mean + log(1 + e^rho) * noise, and return x W^T + b.

  The kernel program does it in three steps: the host samples the bias and recasts it as a one-row matrix; a first
  grid of 32 points samples the weight block by block and stores it TRANSPOSED (and rounded to a narrower format, which
  changes no exact value); a second grid of 128 points multiplies each block of 128 batch rows by the whole transposed
  weight, accumulating from zero, and adds the row. The reference samples both parameters on the host, contracts the
  batch with the weight along the weight's second axis, and adds the bias spread over the rows.

  At every entry (n, o) both are  (sum over k < 4096 of x(n, k) * W(o, k)) + b(o)  with the same W(o, k) and b(o): the
  kernel's exponential and log(1 + .) and the host's are one function each on the extended reals, a matrix product
  into a zero accumulator and the host's contraction are the same finite sum, and the tilings only decide which grid
  point writes which entry. No law that needs finite values is used, so the finiteness of the inputs is never opened.

  The modules: SampledLinear (the layer as one function of the seven arrays), WeightRegion and ProductRegion (what each
  grid leaves in its output array, for any contents it is entered with), KernelRun (the kernel program's run with its
  result named), Boundaries (each grid's entry contents traced back to the launch memory), ReferenceValue (the
  reference's last stage is the layer), and the claims below.
-/
import proofs.«167842_j89541478187695_2_alg».proof.Defs
import proofs.«167842_j89541478187695_2_alg».proof.Proof.Gen.Kernel
import proofs.«167842_j89541478187695_2_alg».proof.Proof.Gen.Kernel.Skeleton
import proofs.«167842_j89541478187695_2_alg».proof.Proof.Gen.Kernel.Launch
import proofs.«167842_j89541478187695_2_alg».proof.Proof.Gen.Kernel.Points
import proofs.«167842_j89541478187695_2_alg».proof.Proof.Gen.Kernel.Frame
import proofs.«167842_j89541478187695_2_alg».proof.Proof.Gen.KernelIdeal
import proofs.«167842_j89541478187695_2_alg».proof.Proof.Gen.KernelIdeal.Skeleton
import proofs.«167842_j89541478187695_2_alg».proof.Proof.Gen.KernelIdeal.Launch
import proofs.«167842_j89541478187695_2_alg».proof.Proof.Gen.KernelIdeal.Points
import proofs.«167842_j89541478187695_2_alg».proof.Proof.Gen.KernelIdeal.Frame
import proofs.«167842_j89541478187695_2_alg».proof.Proof.Gen.ReferenceIdeal
import proofs.«167842_j89541478187695_2_alg».proof.Proof.Gen.Pre_finite_inputs
import proofs.«167842_j89541478187695_2_alg».proof.Proof.Gen.ReferenceIdeal.Run
import proofs.«167842_j89541478187695_2_alg».proof.Proof.Gen.ReferenceIdeal.Read
import proofs.«167842_j89541478187695_2_alg».proof.Proof.SampledLinear
import proofs.«167842_j89541478187695_2_alg».proof.Proof.KernelRun
import proofs.«167842_j89541478187695_2_alg».proof.Proof.Boundaries
import proofs.«167842_j89541478187695_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote none of its operations. -/
theorem preserves : Cert.preserves_Kernel_KernelIdeal := trivial

/-- From memories that agree on the seven arrays, both programs end with the layer's value of those arrays in their
    result buffers. -/
theorem algebraic : Cert.algebraic_KernelIdeal_ReferenceIdeal := by
  intro m ρ m' ρ' _ hagree
  refine ⟨fun c => Cert.SampledLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Boundaries.result_at_exit m ρ c), (h c).2⟩)
      (Cert.KernelIdeal.Run.result_and_arguments (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v11_eq, Cert.ReferenceIdeal.LayerValue.stage_eq_layer,
      e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
